-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel

variable [Facts]

def fn {F : FTy → Type} [FloatOps F] (main_arg0 : FVec F S65536x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  main_v3
-- ==== Kernel.lean ====
abbrev S65536x512 : Shape := ⟨2, ![65536, 512]⟩
abbrev S65536x1536 : Shape := ⟨2, ![65536, 1536]⟩
abbrev S1024x512 : Shape := ⟨2, ![1024, 512]⟩
abbrev S1024x1536 : Shape := ⟨2, ![1024, 1536]⟩
abbrev S1x3 : Shape := ⟨2, ![1, 3]⟩
abbrev S3 : Shape := ⟨1, ![3]⟩
abbrev S1024x512x1 : Shape := ⟨3, ![1024, 512, 1]⟩
abbrev S1x1x3 : Shape := ⟨3, ![1, 1, 3]⟩
abbrev S1024x512x3 : Shape := ⟨3, ![1024, 512, 3]⟩

abbrev nBuf : Space → Nat
  | .hbm => 2
  | .vmem => 4
  | .smem => 0
  | _ => 0

abbrev bufTy : (tb : Table) → Fin (tcTables nBuf tb) → BufTy
  | .hbm, ⟨0, _⟩ => ⟨S65536x512, .f32⟩
  | .hbm, ⟨1, _⟩ => ⟨S65536x1536, .f32⟩
  | .local _ .vmem, ⟨0, _⟩ => ⟨S1024x512, .f32⟩
  | .local _ .vmem, ⟨1, _⟩ => ⟨S1024x512, .f32⟩
  | .local _ .vmem, ⟨2, _⟩ => ⟨S1024x1536, .f32⟩
  | .local _ .vmem, ⟨3, _⟩ => ⟨S1024x1536, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  iota_S1x3_d1_w32 : S1x3.Iotas .tc 32 [1]
  shapeCasts_S1x3_S3 : S1x3.ShapeCasts S3
  shapeCasts_S1024x512_S1024x512x1 : S1024x512.ShapeCasts S1024x512x1
  shapeCasts_S3_S1x1x3 : S3.ShapeCasts S1x1x3
  broadcasts_S1024x512x1_S1024x512x3 : S1024x512x1.Broadcasts S1024x512x3
  broadcasts_S1x1x3_S1024x512x3 : S1x1x3.Broadcasts S1024x512x3
  shapeCasts_S1024x512x3_S1024x1536 : S1024x512x3.ShapeCasts S1024x1536
  inb_S1024x1536_S1024x1536_0_0 : ∀ a, (![0, 0] : Fin 2 → Nat) a + S1024x1536.size a ≤ S1024x1536.size a
  h_S1024x1536 : 0 < S1024x1536.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1536.size a ≤ S65536x1536.size a
  hwx0_1 : ∀ i : grid0.Coords, EltTy.bits .f32 = 32 ∨ (Rect.block (s := S65536x1536) S1024x1536.size (cc0_transform_1 i) (hinb0_1 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1536.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S65536x512 : Shape := ⟨2, ![65536, 512]⟩
abbrev S_ : Shape := ⟨0, ![]⟩
abbrev S3 : Shape := ⟨1, ![3]⟩
abbrev S65536x512x1 : Shape := ⟨3, ![65536, 512, 1]⟩
abbrev S1x1x3 : Shape := ⟨3, ![1, 1, 3]⟩
abbrev S65536x512x3 : Shape := ⟨3, ![65536, 512, 3]⟩
abbrev S65536x1536 : Shape := ⟨2, ![65536, 1536]⟩

abbrev nBuf : Space → Nat
  | .hbm => 26
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S_, .f32⟩
  | .hbm, ⟨2, _⟩ => ⟨S65536x512, .f32⟩
  | .hbm, ⟨3, _⟩ => ⟨S65536x512, .f32⟩
  | .hbm, ⟨4, _⟩ => ⟨S_, .f32⟩
  | .hbm, ⟨5, _⟩ => ⟨S65536x512, .f32⟩
  | .hbm, ⟨6, _⟩ => ⟨S65536x512, .f32⟩
  | .hbm, ⟨7, _⟩ => ⟨S65536x512, .f32⟩
  | .hbm, ⟨8, _⟩ => ⟨S65536x512, .i32⟩
  | .hbm, ⟨9, _⟩ => ⟨S3, .i32⟩
  | .hbm, ⟨10, _⟩ => ⟨S_, .i32⟩
  | .hbm, ⟨11, _⟩ => ⟨S3, .i32⟩
  | .hbm, ⟨12, _⟩ => ⟨S3, .i32⟩
  | .hbm, ⟨13, _⟩ => ⟨S_, .i32⟩
  | .hbm, ⟨14, _⟩ => ⟨S3, .i32⟩
  | .hbm, ⟨15, _⟩ => ⟨S3, .i32⟩
  | .hbm, ⟨16, _⟩ => ⟨S65536x512x1, .i32⟩
  | .hbm, ⟨17, _⟩ => ⟨S1x1x3, .i32⟩
  | .hbm, ⟨18, _⟩ => ⟨S65536x512x3, .i32⟩
  | .hbm, ⟨19, _⟩ => ⟨S65536x512x3, .i32⟩
  | .hbm, ⟨20, _⟩ => ⟨S65536x512x3, .i32⟩
  | .hbm, ⟨21, _⟩ => ⟨S_, .i32⟩
  | .hbm, ⟨22, _⟩ => ⟨S65536x512x3, .i32⟩
  | .hbm, ⟨23, _⟩ => ⟨S65536x512x3, .i32⟩
  | .hbm, ⟨24, _⟩ => ⟨S65536x512x3, .f32⟩
  | .hbm, ⟨25, _⟩ => ⟨S65536x1536, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  bcast_S_S65536x512 : S_.BroadcastsInDim S65536x512 (![] : Fin 0 → Fin S65536x512.rank)
  bcast_S_S3 : S_.BroadcastsInDim S3 (![] : Fin 0 → Fin S3.rank)
  bcast_S65536x512_S65536x512x1_0_1 : S65536x512.BroadcastsInDim S65536x512x1 (![0, 1] : Fin 2 → Fin S65536x512x1.rank)
  bcast_S3_S1x1x3_2 : S3.BroadcastsInDim S1x1x3 (![2] : Fin 1 → Fin S1x1x3.rank)
  bcast_S65536x512x1_S65536x512x3_0_1_2 : S65536x512x1.BroadcastsInDim S65536x512x3 (![0, 1, 2] : Fin 3 → Fin S65536x512x3.rank)
  bcast_S1x1x3_S65536x512x3_0_1_2 : S1x1x3.BroadcastsInDim S65536x512x3 (![0, 1, 2] : Fin 3 → Fin S65536x512x3.rank)
  bcast_S_S65536x512x3 : S_.BroadcastsInDim S65536x512x3 (![] : Fin 0 → Fin S65536x512x3.rank)
  shapeCasts_S65536x512x3_S65536x1536 : S65536x512x3.ShapeCasts S65536x1536

variable [Facts₀]

class Facts : Prop extends Facts₀ where

variable [Facts]
-- ==== Proof.BitPlanes.lean ====
/-
  The specification both programs meet: a 3-bit quantizer followed by the unpacking of each level into its three bits.

  For an input entry `x` the LEVEL is `round_half_even (8·x − 1/2)` converted to a 32-bit integer; bit `k` of the level,
  most significant of the three first, is `(level >> (2 − k)) & 1`, written back as a float. The output row of length 1536
  interleaves the three bits of each of the 512 levels of an input row: output column `j` holds bit `j mod 3` of the level of
  input column `j div 3`. Nothing here depends on the input being finite: every operation is applied entry by entry, the
  same one on both sides.
-/
import Idealize.ShloMosaic.PureOps.Ideal
import Idealize.ShloMosaic.Lib.ValueIdx

noncomputable section

namespace Cert.BitPlanes

open Idealize.ShloMosaic Idealize.ShloMosaic.ValueIdx

/-- The shift amount that brings bit `k` (most significant first) down to position 0, as both programs compute it on
    32-bit words: `2 + (−1)·k`. -/
def shiftOf (k : Fin 3) : BitVec 32 :=
  IntOp.addi 2#32 (IntOp.muli 4294967295#32 (BitVec.ofNat 32 k.val))

/-- The quantizer's level of one entry: `8·x − 1/2` rounded to the nearest integer, ties to even, as a 32-bit integer. -/
def level (x : Ideal .f32) : BitVec 32 :=
  FloatOps.fptosi 32 (FloatOps.roundeven
    (FloatOps.subf (FloatOps.mulf x (FloatOps.ofBits .f32 0x41000000#32)) (FloatOps.ofBits .f32 0x3F000000#32)))

/-- Bit `k` of the level of `x`, as a float (0 or 1). -/
def bitOf (x : Ideal .f32) (k : Fin 3) : Ideal .f32 :=
  FloatOps.sitofp .f32 (IntOp.andi (IntOp.shrsi .vector (level x) (shiftOf k)) 1#32)

/-- The whole result: entry `(r, j)` is bit `j mod 3` of the level of input entry `(r, j div 3)`. -/
def unpacked (x : (⟨2, ![65536, 512]⟩ : Shape).Idx → Ideal .f32) : (⟨2, ![65536, 1536]⟩ : Shape).Idx → Ideal .f32 :=
  fun i => bitOf (x (ix2 (i 0) ⟨(i 1).val / 3, by have := idx2_lt1 i; omega⟩)) ⟨(i 1).val % 3, Nat.mod_lt _ (by decide)⟩

/-- The same bit on a tile of 1024 rows: entry `(p, q)` of the tile's result from the tile's input. -/
def unpackedTile (x : (⟨2, ![1024, 512]⟩ : Shape).Idx → Ideal .f32) : (⟨2, ![1024, 1536]⟩ : Shape).Idx → Ideal .f32 :=
  fun i => bitOf (x (ix2 (i 0) ⟨(i 1).val / 3, by have := idx2_lt1 i; omega⟩)) ⟨(i 1).val % 3, Nat.mod_lt _ (by decide)⟩

end Cert.BitPlanes

end
-- ==== Proof.LibBitLanes.lean ====
/-
  Two facts about unpacking integers into interleaved bit lanes, for any extents.
-/
import Idealize.ShloMosaic.PureOps.Ideal
import Idealize.ShloMosaic.Lib.ValueIdx
import Idealize.ShloMosaic.Lib.Pipeline.Value

noncomputable section

namespace Cert.LibBitLanes

open Idealize.ShloMosaic Idealize.ShloMosaic.ValueIdx

/-- At 32 bits the host's arithmetic right shift is the vector unit's, whatever the amount: below 32 both are the
    sign-propagating shift, and from 32 on both fill the word with the sign bit. (The companions for the left shift and
    the logical right shift are the library's `shli_host` and `shrui_host`.) -/
theorem shrsi_host (x y : BitVec 32) : IntOp.shrsi .host x y = IntOp.shrsi .vector x y := by
  unfold IntOp.shrsi
  split
  · rfl
  · rfl

/-- An `[a, b, c]` array viewed as `[a, b·c]` (the last two axes merged, each row `b` consecutive groups of `c`):
    entry `(p, q)` is entry `(p, q div c, q mod c)`. -/
theorem shapeCast_merge_last_apply {α : Type} {a b c : ℕ} (hc : 0 < c) (u : (⟨3, ![a, b, c]⟩ : Shape).Idx → α)
    (h : (⟨3, ![a, b, c]⟩ : Shape).ShapeCasts ⟨2, ![a, b * c]⟩) (p : Fin a) (q : Fin (b * c)) :
    shapeCast ⟨2, ![a, b * c]⟩ u h (ix2 p q)
      = u (ix3 p (⟨q.val / c, (Nat.div_lt_iff_lt_mul hc).2 q.isLt⟩ : Fin b) (⟨q.val % c, Nat.mod_lt _ hc⟩ : Fin c)) := by
  refine shapeCast_apply u h (ix2 p q) _ ?_
  rw [Shape.rowMajor_val_three, Shape.rowMajor_val_two]
  show (p.val * b + q.val / c) * c + q.val % c = p.val * (b * c) + q.val
  rw [Nat.add_mul, Nat.add_assoc, Nat.div_add_mod' q.val c, Nat.mul_assoc]

end Cert.LibBitLanes

end
-- ==== Proof.BodyBits.lean ====
/-
  What the kernel body stores, entry by entry. On a tile of 1024 rows the body computes the levels of the tile's
  [1024, 512] input, views them as [1024, 512, 1], repeats each along a new last axis of length 3, shifts copy `k` right
  by `2 − k` (the amounts come from an iota over a [1, 3] array, viewed as [3] and then as [1, 1, 3], and repeated over the
  tile), masks the lowest bit, converts it to a float, and views the [1024, 512, 3] result as [1024, 1536]. Read at
  entry `(p, q)` that is bit `q mod 3` of the level of the tile's entry `(p, q div 3)`.
-/
import proofs.«128784_j60232621359584_1_alg».proof.Proof.Gen.KernelIdeal.Skeleton
import proofs.«128784_j60232621359584_1_alg».proof.Proof.BitPlanes
import proofs.«128784_j60232621359584_1_alg».proof.Proof.LibBitLanes
import Idealize.ShloMosaic.Lib.Pipeline.Value

noncomputable section

namespace Cert.BodyBits

open Idealize.ShloMosaic Idealize.ShloMosaic.ValueIdx Cert.KernelIdeal Cert.KernelIdeal.Gen Cert.BitPlanes

variable {α : Type}

/-- A [1024, 512] array viewed as [1024, 512, 1] and repeated three times along the last axis: entry `(p, c, k)` is
    entry `(p, c)`. -/
theorem repeat_levels (v : S1024x512.Idx → α) (p : Fin 1024) (c : Fin 512) (k : Fin 3) :
    broadcastTo S1024x512x3 (shapeCast S1024x512x1 v shapeCasts_S1024x512_S1024x512x1) broadcasts_S1024x512x1_S1024x512x3
      (ix3 p c k) = v (ix2 p c) := by
  refine (broadcastTo_apply _ broadcasts_S1024x512x1_S1024x512x3 (ix3 p c k) (ix3 p c (0 : Fin 1)) ?_).trans ?_
  · intro a
    match a with
    | ⟨0, _⟩ => rfl
    | ⟨1, _⟩ => rfl
    | ⟨2, _⟩ => rfl
  · refine shapeCast_apply v shapeCasts_S1024x512_S1024x512x1 (ix3 p c (0 : Fin 1)) (ix2 p c) ?_
    rw [Shape.rowMajor_val_three, Shape.rowMajor_val_two]
    show p.val * 512 + c.val = (p.val * 512 + c.val) * 1 + 0
    omega

/-- A [3] array viewed as [1, 1, 3] and repeated over the tile: entry `(p, c, k)` is entry `k`. -/
theorem repeat_shifts (w : S3.Idx → α) (p : Fin 1024) (c : Fin 512) (k : Fin 3) :
    broadcastTo S1024x512x3 (shapeCast S1x1x3 w shapeCasts_S3_S1x1x3) broadcasts_S1x1x3_S1024x512x3
      (ix3 p c k) = w (ix1 k) := by
  refine (broadcastTo_apply _ broadcasts_S1x1x3_S1024x512x3 (ix3 p c k) (ix3 (0 : Fin 1) (0 : Fin 1) k) ?_).trans ?_
  · intro a
    match a with
    | ⟨0, _⟩ => rfl
    | ⟨1, _⟩ => rfl
    | ⟨2, _⟩ => rfl
  · refine shapeCast_apply w shapeCasts_S3_S1x1x3 (ix3 (0 : Fin 1) (0 : Fin 1) k) (ix1 k) ?_
    rw [Shape.rowMajor_val_three, Shape.rowMajor_val_one]
    show k.val = (0 * 1 + 0) * 3 + k.val
    omega

/-- The iota along the lanes of a [1, 3] array, viewed as [3]: entry `k` is `k`. -/
theorem lane_number (k : Fin 3) :
    shapeCast S3 (iota .tc S1x3 32 [1] iota_S1x3_d1_w32) shapeCasts_S1x3_S3 (ix1 k) = BitVec.ofNat 32 k.val := by
  refine (shapeCast_apply _ shapeCasts_S1x3_S3 (ix1 k) (ix2 (0 : Fin 1) k) ?_).trans ?_
  · rw [Shape.rowMajor_val_two, Shape.rowMajor_val_one]
    show 0 * 3 + k.val = k.val
    omega
  · exact iota_single_apply .tc S1x3 32 1 iota_S1x3_d1_w32 (ix2 (0 : Fin 1) k)

/-- A [1024, 512, 3] array viewed as [1024, 1536]: entry `(p, q)` is entry `(p, q div 3, q mod 3)`. -/
theorem interleave (u : S1024x512x3.Idx → α) (p : Fin 1024) (q : Fin 1536) :
    shapeCast S1024x1536 u shapeCasts_S1024x512x3_S1024x1536 (ix2 p q)
      = u (ix3 p (⟨q.val / 3, by omega⟩ : Fin 512) (⟨q.val % 3, Nat.mod_lt _ (by decide)⟩ : Fin 3)) := by
  exact Cert.LibBitLanes.shapeCast_merge_last_apply (a := 1024) (b := 512) (c := 3) (by decide) u
    shapeCasts_S1024x512x3_S1024x1536 p q

/-- The body's stored value is the tile's specification. -/
theorem body_unpacked (v0 : Vec Ideal S1024x512 .f32) : k0_pay1 (F := Ideal) v0 = unpackedTile v0 := by
  funext j
  obtain ⟨p, q, rfl⟩ : ∃ (p : Fin 1024) (q : Fin 1536), j = ix2 p q := ⟨j 0, j 1, eq_ix2 j⟩
  unfold k0_pay1
  dsimp only
  rw [interleave]
  dsimp only [sitofp, andi, shrsi, addi, muli, broadcast]
  rw [repeat_levels, repeat_shifts]
  dsimp only [addi, muli, broadcast]
  rw [lane_number]
  rfl

end Cert.BodyBits

end
-- ==== Proof.KernelBits.lean ====
/-
  From tiles to the whole array. Grid point `t` (of 64) reads rows `1024·t … 1024·t + 1023` of the input, all 512
  columns, and writes back the same rows of the output, all 1536 columns. What it writes is the body's value of the tile
  it read; since the output entry `(r, j)` depends only on the input entry `(r, j div 3)` of the same row, the tile's result
  is the specification restricted to the tile's rows. The 64 tiles cover every row (row `r` lies in tile `r div 1024`), so
  after the run the output array is the specification of the input array.
-/
import proofs.«128784_j60232621359584_1_alg».proof.Proof.Gen.KernelIdeal.Value
import proofs.«128784_j60232621359584_1_alg».proof.Proof.BodyBits

noncomputable section

namespace Cert.KernelBits

open Cert.KernelIdeal Cert.KernelIdeal.Gen Idealize.ShloMosaic Idealize.ShloMosaic.TcCoe Idealize.SL.Sem
open Idealize.ShloMosaic.ValueIdx Cert.BitPlanes
open Idealize.ShloMosaic.Pipeline (Dat)

variable (m : (ℓ : Loc nD τ sig) → Buf (Elt Ideal) ℓ) (ρ : Dev nD → PrngReg)

/-- The body's one load and one store start at the tile's first entry. -/
theorem origin : (![0, 0] : Fin 2 → Nat) = fun _ => 0 := funext fun a => by fin_cases a <;> rfl

/-- The two windows' block indices at grid point `t`, decided over the 64 points: both are `(t, 0)`. -/
theorem tile_index : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) = t.val :=
  (by decide +kernel : ∀ t : Fin grid0.N, _)

/-- The bit of an entry depends only on the entry and on the bit's number. -/
theorem bitOf_congr {x y : Ideal .f32} {k k' : Fin 3} (hx : x = y) (hk : k.val = k'.val) : bitOf x k = bitOf y k' := by
  rw [hx, Fin.ext hk]

/-- What grid point `t` writes back is the specification of the whole input array, read through the point's tile. -/
theorem tile_written (c : Dev nD) (t : Fin cfg0.N) :
    (dats m 0 c).flushed 1 t = ((cfg0.win 1).blk t).view.read (Elt Ideal) (unpacked (V m c main_arg0)) := by
  rw [Cert.KernelIdeal.Value.flushed1]
  unfold out0_1
  rw [View.canon_unit_zero origin]
  simp only [View.ld_unit_zero (S := S1024x512) origin]
  rw [Cert.BodyBits.body_unpacked]
  obtain ⟨e0, e1, e2, e3⟩ := tile_index t
  funext j
  have hj0 : (j 0).val < 1024 := (j 0).isLt
  have hj1 : (j 1).val < 1536 := (j 1).isLt
  show bitOf (V m c main_arg0 (((cfg0.win 0).blk t).view.emb (ix2 (j 0) ⟨(j 1).val / 3, _⟩))) ⟨(j 1).val % 3, _⟩
    = bitOf (V m c main_arg0 (ix2 ((((cfg0.win 1).blk t).view.emb j) 0) ⟨((((cfg0.win 1).blk t).view.emb j) 1).val / 3, _⟩))
        ⟨((((cfg0.win 1).blk t).view.emb j) 1).val % 3, _⟩
  refine bitOf_congr (congrArg (V m c main_arg0) ?_) ?_
  · funext a
    apply Fin.ext
    match a with
    | ⟨0, _⟩ =>
      show win0_0.index t (0 : Fin 2) * 1024 + 1 * (j 0).val = win0_1.index t (0 : Fin 2) * 1024 + 1 * (j 0).val
      omega
    | ⟨1, _⟩ =>
      show win0_0.index t (1 : Fin 2) * 512 + 1 * ((j 1).val / 3) = (win0_1.index t (1 : Fin 2) * 1536 + 1 * (j 1).val) / 3
      omega
  · show (j 1).val % 3 = (win0_1.index t (1 : Fin 2) * 1536 + 1 * (j 1).val) % 3
    omega

/-- An index of the output array lies in point `t`'s tile iff each coordinate lies in the tile's range on its axis. -/
theorem mem_tile (t : Fin cfg0.N) (i : S65536x1536.Idx) :
    i ∈ ((cfg0.win 1).blk t).view.set ↔ ∀ a : Fin 2, win0_1.index t a * S1024x1536.size a ≤ (i a).val
      ∧ (i a).val < win0_1.index t a * S1024x1536.size a + S1024x1536.size a := by
  show i ∈ ((View.whole main_v0).slice (win0_1.rect t)).set ↔ _
  rw [View.set_slice_whole, Rect.mem_set_unit]
  exact Iff.rfl

/-- Every output entry lies in the tile of some grid point: row `r` in that of point `r div 1024`. -/
theorem tiles_cover (i : S65536x1536.Idx) :
    ∃ t : Fin cfg0.N, (cfg0.win 1).flush t = true ∧ i ∈ ((cfg0.win 1).blk t).view.set := by
  have hi0 : (i 0).val < 65536 := idx2_lt0 i
  have hi1 : (i 1).val < 1536 := idx2_lt1 i
  have ht : (i 0).val / 1024 < 64 := by omega
  obtain ⟨e0, e1, e2, e3⟩ := tile_index ⟨(i 0).val / 1024, ht⟩
  have e3' : win0_1.index ⟨(i 0).val / 1024, ht⟩ (0 : Fin 2) = (i 0).val / 1024 := e3
  refine ⟨⟨(i 0).val / 1024, ht⟩, flush0_1 _, ?_⟩
  rw [mem_tile]
  intro a
  match a with
  | ⟨0, _⟩ =>
    show win0_1.index ⟨(i 0).val / 1024, ht⟩ (0 : Fin 2) * 1024 ≤ (i 0).val
      ∧ (i 0).val < win0_1.index ⟨(i 0).val / 1024, ht⟩ (0 : Fin 2) * 1024 + 1024
    omega
  | ⟨1, _⟩ =>
    show win0_1.index ⟨(i 0).val / 1024, ht⟩ (1 : Fin 2) * 1536 ≤ (i 1).val
      ∧ (i 1).val < win0_1.index ⟨(i 0).val / 1024, ht⟩ (1 : Fin 2) * 1536 + 1536
    omega

/-- After the run the output array is the specification of the input array as launched. -/
theorem result_array (c : Dev nD) :
    (dats m 0 c).arrAt 1 cfg0.N = unpacked (m ((c : Thread nD τ).loc main_arg0)) :=
  (dats m 0 c).arrAt_eq_of_cover 1 (unpacked (V m c main_arg0)) (fun t _ => tile_written m c t) tiles_cover

/-- The kernel's run at the exact instance: it terminates with the output array at the specification of the input
    array, the input unchanged. -/
theorem run : θ_run defs (onTc (τ := τ) (main (F := Ideal))) ⟨m, fun _ => 0, ρ⟩ fun r => ∀ c : Dev nD,
      r.2.mem ((c : Thread nD τ).loc main_v0) = unpacked (m ((c : Thread nD τ).loc main_arg0))
      ∧ r.2.mem ((c : Thread nD τ).loc main_arg0) = m ((c : Thread nD τ).loc main_arg0) :=
  (θ_run defs _ _).mono (fun r h c => ⟨(h c).1.trans (result_array m c), (h c).2⟩)
    (Cert.KernelIdeal.Value.run_blocks m ρ)

end Cert.KernelBits

end
-- ==== Proof.RefBits.lean ====
/-
  The reference computes the specification. Its result is a reshape of a [65536, 512, 3] array whose entry `(r, c, k)` is
  bit `k` of the level of input entry `(r, c)`; the reshape to [65536, 1536] keeps the row and sends column `j` to
  `(j div 3, j mod 3)`, since a row of the wide array is 512 consecutive triples.
-/
import proofs.«128784_j60232621359584_1_alg».proof.Proof.Gen.ReferenceIdeal.Read
import proofs.«128784_j60232621359584_1_alg».proof.Proof.BitPlanes
import proofs.«128784_j60232621359584_1_alg».proof.Proof.LibBitLanes

noncomputable section

namespace Cert.RefBits

open Idealize.ShloMosaic Idealize.ShloMosaic.ValueIdx Cert.ReferenceIdeal Cert.ReferenceIdeal.Read Cert.BitPlanes Cert.LibBitLanes

/-- Entry `(r, j)` of the reshaped result is read from input entry `(r, j div 3)`: the row-major position `1536·r + j`
    of the [65536, 1536] array is position `(512·r + j div 3)·3 + j mod 3` of the [65536, 512, 3] one. -/
theorem source_entry (i : S65536x1536.Idx) :
    idx_main_v11 (idx_main_v13 (idx_main_v19 i)) = ix2 (i 0) ⟨(i 1).val / 3, by have := idx2_lt1 i; omega⟩ := by
  have h0 : (i 0).val < 65536 := idx2_lt0 i
  have h1 : (i 1).val < 1536 := idx2_lt1 i
  funext a
  apply Fin.ext
  match a with
  | ⟨0, _⟩ => show ((i 0).val * 1536 + (i 1).val) / 1536 = (i 0).val; omega
  | ⟨1, _⟩ => show ((i 0).val * 1536 + (i 1).val) / 3 % 512 = (i 1).val / 3; omega

/-- … and it is bit `j mod 3` that is read. -/
theorem source_bit (i : S65536x1536.Idx) :
    (idx_main_v12 (idx_main_v14 (idx_main_v19 i)) 0).val = (i 1).val % 3 := by
  show ((i 0).val * 1536 + (i 1).val) % 3 = (i 1).val % 3
  omega

/-- The reference's result, as a function of its argument array, is the specification. -/
theorem ref_unpacked (x0 : S65536x512.Idx → Ideal .f32) : val_main_v19 (F := Ideal) x0 = unpacked x0 := by
  funext i
  rw [val_main_v19_apply, val_main_v18_apply, val_main_v17_apply, val_main_v15_apply, val_main_v16_apply,
    val_main_c_2_apply, val_main_v13_apply, val_main_v11_apply, val_main_v5_apply, val_main_v4_apply,
    val_main_v3_apply, val_main_v1_apply, val_main_v2_apply, val_main_cst_0_apply, val_main_v0_apply,
    val_main_cst_apply, val_main_v14_apply, val_main_v12_apply, val_main_v10_apply, val_main_v9_apply,
    val_main_c_1_apply, val_main_v8_apply, val_main_v7_apply, val_main_c_apply, val_main_v6_apply,
    source_entry, source_bit, shrsi_host]
  rfl

end Cert.RefBits

end
-- ==== Proof.lean ====
/-
  A 3-bit quantizer with its levels unpacked into bits, as a tiled streaming kernel, against the same computation written
  with whole-array operations.

  Both programs send an input entry `x` to its level `round_half_even (8·x − 1/2)` as a 32-bit integer and then to the three
  floats `(level >> (2 − k)) & 1`, `k = 0, 1, 2`; the [65536, 1536] result interleaves the three bits of the 512 levels of
  each input row, so entry `(r, j)` is bit `j mod 3` of the level of input entry `(r, j div 3)` (Proof/BitPlanes.lean,
  `unpacked`). The kernel does this on 64 tiles of 1024 rows: its body's stored value, read entry by entry, is that
  function of the tile (Proof/BodyBits.lean), each tile's result is the whole-array function restricted to the tile's
  rows, and the tiles cover the array (Proof/KernelBits.lean). The reference builds a [65536, 512, 3] array and reshapes
  it; read entry by entry it is the same function (Proof/RefBits.lean). The two sides apply the same operations to the
  same entry — the rounding to nearest-even of the kernel and of the host are one function on the extended reals, and at
  32 bits the host's arithmetic right shift is the vector unit's — so no property of the input is used: the claim holds
  for every extended-real input, and the precondition is never opened. Nothing was rewritten by the idealization, so the
  idealized kernel is the kernel's own text and that conjunct is trivial.
-/
import proofs.«128784_j60232621359584_1_alg».proof.Defs
import proofs.«128784_j60232621359584_1_alg».proof.Proof.Gen.Kernel
import proofs.«128784_j60232621359584_1_alg».proof.Proof.Gen.Kernel.Skeleton
import proofs.«128784_j60232621359584_1_alg».proof.Proof.Gen.Kernel.Launch
import proofs.«128784_j60232621359584_1_alg».proof.Proof.Gen.Kernel.Points
import proofs.«128784_j60232621359584_1_alg».proof.Proof.Gen.Kernel.Frame
import proofs.«128784_j60232621359584_1_alg».proof.Proof.Gen.KernelIdeal
import proofs.«128784_j60232621359584_1_alg».proof.Proof.Gen.KernelIdeal.Skeleton
import proofs.«128784_j60232621359584_1_alg».proof.Proof.Gen.KernelIdeal.Launch
import proofs.«128784_j60232621359584_1_alg».proof.Proof.Gen.KernelIdeal.Points
import proofs.«128784_j60232621359584_1_alg».proof.Proof.Gen.KernelIdeal.Frame
import proofs.«128784_j60232621359584_1_alg».proof.Proof.Gen.ReferenceIdeal
import proofs.«128784_j60232621359584_1_alg».proof.Proof.Gen.Pre_finite_inputs
import proofs.«128784_j60232621359584_1_alg».proof.Proof.Gen.KernelIdeal.Value
import proofs.«128784_j60232621359584_1_alg».proof.Proof.Gen.ReferenceIdeal.Run
import proofs.«128784_j60232621359584_1_alg».proof.Proof.Gen.ReferenceIdeal.Read
import proofs.«128784_j60232621359584_1_alg».proof.Proof.KernelBits
import proofs.«128784_j60232621359584_1_alg».proof.Proof.RefBits
import Idealize.ShloMosaic.Adequacy
import Idealize.ShloMosaic.Init

noncomputable section

namespace Cert.Proof

open Idealize.ShloMosaic Idealize.SL.Sem

/-- The kernel as printed terminates without a fault and leaves its argument as launched. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a line of whole-array operations: it runs, and its argument is never written. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the bits of the levels of that one argument array. -/
theorem algebraic : Cert.algebraic_KernelIdeal_ReferenceIdeal := by
  intro m ρ m' ρ' _ hagree
  refine ⟨_, Cert.KernelBits.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.RefBits.ref_unpacked, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
